-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x1024x256 : Shape := ⟨3, ![8, 1024, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn {F : FTy → Type} [FloatOps F] (main_arg0 : FVec F S8x4096x256 .f32) (main_arg1 : FVec F S8x1024x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  main_v8
-- ==== Kernel.lean ====
abbrev S8x4096x256 : Shape := ⟨3, ![8, 4096, 256]⟩
abbrev S8x1024x256 : Shape := ⟨3, ![8, 1024, 256]⟩
abbrev S8x4096 : Shape := ⟨2, ![8, 4096]⟩
abbrev S8x512x256 : Shape := ⟨3, ![8, 512, 256]⟩
abbrev S8x512 : Shape := ⟨2, ![8, 512]⟩
abbrev S8x512x128 : Shape := ⟨3, ![8, 512, 128]⟩
abbrev S8x256x256 : Shape := ⟨3, ![8, 256, 256]⟩
abbrev S8x256 : Shape := ⟨2, ![8, 256]⟩
abbrev S8x1x256 : Shape := ⟨3, ![8, 1, 256]⟩
abbrev S8x512x2x128 : Shape := ⟨4, ![8, 512, 2, 128]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x256, .f32⟩
  | .hbm, ⟨1, _⟩ => ⟨S8x1024x256, .f32⟩
  | .hbm, ⟨2, _⟩ => ⟨S8x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8x512x256, .f32⟩
  | .local _ .vmem, ⟨1, _⟩ => ⟨S8x512x256, .f32⟩
  | .local _ .vmem, ⟨2, _⟩ => ⟨S8x1024x256, .f32⟩
  | .local _ .vmem, ⟨3, _⟩ => ⟨S8x512, .f32⟩
  | .local _ .vmem, ⟨4, _⟩ => ⟨S8x512, .f32⟩
  | .local _ .vmem, ⟨5, _⟩ => ⟨S8x512x128, .f32⟩
  | .local _ .vmem, ⟨6, _⟩ => ⟨S8x512, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c256_i32 : BitVec 32 := 256#32
  let v4 : BitVec 32 := Scalar.muli arg1 c256_i32
  v4
def k0_off1 (i : grid0.Coords) : Fin 3 → Nat :=
  let c0_3 : Index := 0#32
  let arg1 : BitVec 32 := BitVec.ofNat 32 (i 1).val
  let c256_i32 : BitVec 32 := 256#32
  let v4 : BitVec 32 := Scalar.muli arg1 c256_i32
  let v5 : BitVec 32 := v4
  let v6 : Index := Scalar.indexCast v5
  let c0_4 : Index := 0#32
  ![0, v6.toNat, 0]
def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_14 : BitVec 32 := 0#32
  let v27 : BitVec 1 := Scalar.cmpi .ne v26 c0_i32_14
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x512x256_S8x512x256_0_0_0 : ∀ a, (![0, 0, 0] : Fin 3 → Nat) a + S8x512x256.size a ≤ S8x512x256.size a
  h_S8x512x256 : 0 < S8x512x256.numel
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  reduces_S8x512x256_S8x512 : S8x512x256.Reduces [2] S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  h_S8x256x256 : 0 < S8x256x256.numel
  reduces_S8x256x256_S8x256 : S8x256x256.Reduces [2] S8x256
  bitsLt_bf16_f32 : FTy.bits .bf16 < FTy.bits .f32
  shapeCasts_S8x256_S8x1x256 : S8x256.ShapeCasts S8x1x256
  broadcasts_S8x1x256_S8x512x256 : S8x1x256.Broadcasts S8x512x256
  shapeCasts_S8x512x256_S8x512x2x128 : S8x512x256.ShapeCasts S8x512x2x128
  reduces_S8x512x2x128_S8x512x128 : S8x512x2x128.Reduces [2] S8x512x128
  reduces_S8x512x128_S8x512 : S8x512x128.Reduces [2] S8x512
  reducesTo_S8x4096_S_d0_1 : S8x4096.ReducesTo [0, 1] S_
  h_S_ : 0 < S_.numel
  dot_S8x512x256_S8x256x256_S8x512x256_2_2_1_1_0_0_wf : DotDims.WF S8x512x256 S8x256x256 S8x512x256 [2] [2] [1] [1] [0] [0]
  hrank0 : 0 < grid0.rank
  k0_mult1_dvd : ∀ i : grid0.Coords, 256 ∣ (k0_mult1 i).toNat
  k0_off1_inb : ∀ i : grid0.Coords, ∀ a, (k0_off1 i) a + S8x256x256.size a ≤ S8x1024x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S8x4096x256.size a
  hwx0_0 : ∀ i : grid0.Coords, EltTy.bits .f32 = 32 ∨ (Rect.block (s := S8x4096x256) S8x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x256.size a ≤ S8x1024x256.size a
  hwx0_1 : ∀ i : grid0.Coords, EltTy.bits .f32 = 32 ∨ (Rect.block (s := S8x1024x256) S8x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)

variable [Facts₀]

def dot_S8x512x256_S8x256x256_S8x512x256_2_2_1_1_0_0 : DotDims S8x512x256 S8x256x256 S8x512x256 where
  lhsContracting := [2]
  rhsContracting := [2]
  lhsNonContracting := [1]
  rhsNonContracting := [1]
  lhsBatch := [0]
  rhsBatch := [0]
  wf := dot_S8x512x256_S8x256x256_S8x512x256_2_2_1_1_0_0_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S8x1024x256 : Shape := ⟨3, ![8, 1024, 256]⟩
abbrev S_ : Shape := ⟨0, ![]⟩
abbrev S8x4096 : Shape := ⟨2, ![8, 4096]⟩
abbrev S8x1024 : Shape := ⟨2, ![8, 1024]⟩
abbrev S8x4096x1024 : Shape := ⟨3, ![8, 4096, 1024]⟩
abbrev S8x4096x1 : Shape := ⟨3, ![8, 4096, 1]⟩
abbrev S8x1x1024 : Shape := ⟨3, ![8, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x1024x256, .f32⟩
  | .hbm, ⟨2, _⟩ => ⟨S8x4096x256, .f32⟩
  | .hbm, ⟨3, _⟩ => ⟨S_, .f32⟩
  | .hbm, ⟨4, _⟩ => ⟨S8x4096, .f32⟩
  | .hbm, ⟨5, _⟩ => ⟨S8x1024x256, .f32⟩
  | .hbm, ⟨6, _⟩ => ⟨S_, .f32⟩
  | .hbm, ⟨7, _⟩ => ⟨S8x1024, .f32⟩
  | .hbm, ⟨8, _⟩ => ⟨S8x4096x1024, .f32⟩
  | .hbm, ⟨9, _⟩ => ⟨S8x4096x1, .f32⟩
  | .hbm, ⟨10, _⟩ => ⟨S8x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  reducesTo_S8x1024x256_S8x1024_d2 : S8x1024x256.ReducesTo [2] S8x1024
  bcast_S8x4096_S8x4096x1_0_1 : S8x4096.BroadcastsInDim S8x4096x1 (![0, 1] : Fin 2 → Fin S8x4096x1.rank)
  bcast_S8x1024_S8x1x1024_0_2 : S8x1024.BroadcastsInDim S8x1x1024 (![0, 2] : Fin 2 → Fin S8x1x1024.rank)
  bcast_S8x4096x1_S8x4096x1024_0_1_2 : S8x4096x1.BroadcastsInDim S8x4096x1024 (![0, 1, 2] : Fin 3 → Fin S8x4096x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S8x4096x1024_S8x4096_d2 : S8x4096x1024.ReducesTo [2] S8x4096
  reducesTo_S8x4096_S_d0_1 : S8x4096.ReducesTo [0, 1] S_
  dot_S8x4096x256_S8x1024x256_S8x4096x1024_2_2_1_1_0_0_wf : DotDims.WF S8x4096x256 S8x1024x256 S8x4096x1024 [2] [2] [1] [1] [0] [0]

variable [Facts₀]

def dot_S8x4096x256_S8x1024x256_S8x4096x1024_2_2_1_1_0_0 : DotDims S8x4096x256 S8x1024x256 S8x4096x1024 where
  lhsContracting := [2]
  rhsContracting := [2]
  lhsNonContracting := [1]
  rhsNonContracting := [1]
  lhsBatch := [0]
  rhsBatch := [0]
  wf := dot_S8x4096x256_S8x1024x256_S8x4096x1024_2_2_1_1_0_0_wf

class Facts : Prop extends Facts₀ where

variable [Facts]
-- ==== Proof.Pieces.lean ====
/-
  What each of the kernel body's three control cases leaves behind, as values (for any float instance).
  The body keeps, per point of the current tile of 512 points, 128 running minima and the point's squared norm in
  two buffers that persist across grid points. Over the 4 tiles of 256 centres:
    * first tile:  the minima are reset to +∞ and at once updated with the tile; the squared norms are stored;
    * middle tiles: the minima are updated from what the tile before left; the norms are untouched;
    * last tile:   the minima are updated, and the result block is computed from them and the stored norms.
  Every store covers its whole buffer, so what a buffer holds afterwards is the last store's value, and a load after a
  store reads that value back.
-/
import proofs.«137503_j84232898609604_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The tile of 256 centres the body loads at grid point `i`: rows `256·i₁ …` of the resident centres. -/
abbrev ctile (i : grid0.Coords) (x1 : Vec F S8x1024x256 .f32) : Vec F S8x256x256 .f32 :=
  View.ld x1 (Rect.unit (s := S8x1024x256) (k0_off1 i) S8x256x256.size (Facts₀.k0_off1_inb i))

/-- First tile of centres: the running minima are reset to +∞ and updated at once. -/
theorem first_minima (c : Dev nD) (i : grid0.Coords) (arg2 : Memref sig .tc .vmem S8x512x256 .f32) (harg2 : arg2.IsWhole) (arg3 : Memref sig .tc .vmem S8x1024x256 .f32) (harg3 : arg3.IsWhole) (arg4 : Memref sig .tc .vmem S8x512 .f32) (harg4 : arg4.IsWhole) (arg5 : Memref sig .tc .vmem S8x512x128 .f32) (harg5 : arg5.IsWhole) (arg6 : Memref sig .tc .vmem S8x512 .f32) (harg6 : arg6.IsWhole) (hc0 : cond0_0 i) (hc1 : ¬cond0_1 i)
    (x0 : Vec F S8x512x256 .f32) (x1 : Vec F S8x1024x256 .f32) :
    sout0_A_0 c i arg2 harg2 arg3 harg3 arg4 harg4 arg5 harg5 arg6 harg6 hc0 hc1 x0 x1 = k0_pay3 x0 (ctile i x1) k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S8x512x128) hz3, View.readCov_unit_zero (S := S8x512x128) _ hz3]
  simp only [View.readAt_eq_ld, harg2.read_unread, harg3.read_unread, View.ld_unit_zero (S := S8x512x256) hz3]
  rfl

/-- First tile of centres: the points' squared norms are stored. -/
theorem first_norms (c : Dev nD) (i : grid0.Coords) (arg2 : Memref sig .tc .vmem S8x512x256 .f32) (harg2 : arg2.IsWhole) (arg3 : Memref sig .tc .vmem S8x1024x256 .f32) (harg3 : arg3.IsWhole) (arg4 : Memref sig .tc .vmem S8x512 .f32) (harg4 : arg4.IsWhole) (arg5 : Memref sig .tc .vmem S8x512x128 .f32) (harg5 : arg5.IsWhole) (arg6 : Memref sig .tc .vmem S8x512 .f32) (harg6 : arg6.IsWhole) (hc0 : cond0_0 i) (hc1 : ¬cond0_1 i)
    (x0 : Vec F S8x512x256 .f32) (x1 : Vec F S8x1024x256 .f32) :
    sout0_A_1 c i arg2 harg2 arg3 harg3 arg4 harg4 arg5 harg5 arg6 harg6 hc0 hc1 x0 x1 = k0_pay2 x0 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_unit_zero (S := S8x512) hz2]
  simp only [View.readAt_eq_ld, harg2.read_unread, View.ld_unit_zero (S := S8x512x256) hz3]

/-- A middle tile: the running minima are updated from what the tile before left. -/
theorem middle_minima (c : Dev nD) (i : grid0.Coords) (arg2 : Memref sig .tc .vmem S8x512x256 .f32) (harg2 : arg2.IsWhole) (arg3 : Memref sig .tc .vmem S8x1024x256 .f32) (harg3 : arg3.IsWhole) (arg4 : Memref sig .tc .vmem S8x512 .f32) (harg4 : arg4.IsWhole) (arg5 : Memref sig .tc .vmem S8x512x128 .f32) (harg5 : arg5.IsWhole) (arg6 : Memref sig .tc .vmem S8x512 .f32) (harg6 : arg6.IsWhole) (hc0 : ¬cond0_0 i) (hc1 : ¬cond0_1 i)
    (x0 : Vec F S8x512x256 .f32) (x1 : Vec F S8x1024x256 .f32) (xs0 : Vec F S8x512x128 .f32) (xs1 : Vec F S8x512 .f32) :
    sout0_B_0 c i arg2 harg2 arg3 harg3 arg4 harg4 arg5 harg5 arg6 harg6 hc0 hc1 x0 x1 xs0 xs1 = k0_pay3 x0 (ctile i x1) xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S8x512x128) hz3]
  simp only [View.readAt_eq_ld, harg2.read_unread, harg3.read_unread, harg5.read_unread, View.ld_unit_zero (S := S8x512x256) hz3,
    View.ld_unit_zero (S := S8x512x128) hz3]
  rfl

/-- The last tile: the running minima are updated the same way … -/
theorem last_minima (c : Dev nD) (i : grid0.Coords) (arg2 : Memref sig .tc .vmem S8x512x256 .f32) (harg2 : arg2.IsWhole) (arg3 : Memref sig .tc .vmem S8x1024x256 .f32) (harg3 : arg3.IsWhole) (arg4 : Memref sig .tc .vmem S8x512 .f32) (harg4 : arg4.IsWhole) (arg5 : Memref sig .tc .vmem S8x512x128 .f32) (harg5 : arg5.IsWhole) (arg6 : Memref sig .tc .vmem S8x512 .f32) (harg6 : arg6.IsWhole) (hc0 : ¬cond0_0 i) (hc1 : cond0_1 i)
    (x0 : Vec F S8x512x256 .f32) (x1 : Vec F S8x1024x256 .f32) (xs0 : Vec F S8x512x128 .f32) (xs1 : Vec F S8x512 .f32) :
    sout0_C_0 c i arg2 harg2 arg3 harg3 arg4 harg4 arg5 harg5 arg6 harg6 hc0 hc1 x0 x1 xs0 xs1 = k0_pay3 x0 (ctile i x1) xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S8x512x128) hz3]
  simp only [View.readAt_eq_ld, harg2.read_unread, harg3.read_unread, harg5.read_unread, View.ld_unit_zero (S := S8x512x256) hz3,
    View.ld_unit_zero (S := S8x512x128) hz3]
  rfl

/-- … and the result block is computed from the updated minima and the stored norms. -/
theorem last_result (c : Dev nD) (i : grid0.Coords) (arg2 : Memref sig .tc .vmem S8x512x256 .f32) (harg2 : arg2.IsWhole) (arg3 : Memref sig .tc .vmem S8x1024x256 .f32) (harg3 : arg3.IsWhole) (arg4 : Memref sig .tc .vmem S8x512 .f32) (harg4 : arg4.IsWhole) (arg5 : Memref sig .tc .vmem S8x512x128 .f32) (harg5 : arg5.IsWhole) (arg6 : Memref sig .tc .vmem S8x512 .f32) (harg6 : arg6.IsWhole) (hc0 : ¬cond0_0 i) (hc1 : cond0_1 i)
    (x0 : Vec F S8x512x256 .f32) (x1 : Vec F S8x1024x256 .f32) (xs0 : Vec F S8x512x128 .f32) (xs1 : Vec F S8x512 .f32) :
    out0_C_2 c i arg2 harg2 arg3 harg3 arg4 harg4 arg5 harg5 arg6 harg6 hc0 hc1 x0 x1 xs0 xs1 = k0_pay4 (k0_pay3 x0 (ctile i x1) xs0) xs1 := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S8x512) hz2, View.readCov_unit_zero (S := S8x512x128) _ hz3]
  simp only [View.readAt_eq_ld, harg2.read_unread, harg3.read_unread, harg5.read_unread, harg6.read_unread,
    View.ld_unit_zero (S := S8x512x256) hz3, View.ld_unit_zero (S := S8x512x128) hz3, View.ld_unit_zero (S := S8x512) hz2]
  rfl

end Cert.KernelIdeal.Pieces

end
-- ==== Proof.LibMinFold.lean ====
/-
  Minima over one axis at the ideal values, and monotone maps through them.

  * `fold_min_map`: a monotone map of the extended reals commutes with the fold of `min` over any finite set,
    the starting value mapped too: `min` of images is the image of `min` on a linear order.
  * `sqrt_mono`: the ideal square root — the real root on `[0, ∞)`, `⊤` at `⊤`, `⊥` below zero — is monotone on
    ALL extended reals, so clamping at any constant and then taking the root is monotone too (`clampRoot_mono`).
  * `multiReduction_minimumf_single`: a `vector.multi_reduction <minimumf>` over ONE axis, read at a result index, is
    the fold of `min` from the accumulator's value over that axis's coordinates (the `<maximumf>` law's twin).
  * `hostReduce_minimumf_single`: the host's one-operand `stablehlo.reduce` with a `minimum` body over one axis likewise.
  * `ofBits_inf_f32`: the f32 word `0x7F800000` is `⊤`.
-/
import Idealize.ShloMosaic.PureOps.Ideal
import Idealize.ShloMosaic.PureOps.Ideal.Laws
import Idealize.ShloMosaic.PureOps.Reduce

noncomputable section

namespace Cert.MinFold

open Idealize.ShloMosaic

/-- A monotone map commutes with a fold of `min`: the fold of the images from the image of the start is the image of
    the fold. No finiteness, no non-emptiness: on a linear order `f (min a b) = min (f a) (f b)`. -/
theorem fold_min_map {ι : Type*} (s : Finset ι) (f : EReal → EReal) (hf : Monotone f) (c : EReal) (g : ι → EReal) :
    s.fold min (f c) (fun i => f (g i)) = f (s.fold min c g) := by
  classical
  induction s using Finset.induction_on with
  | empty => rfl
  | insert a s ha ih => rw [Finset.fold_insert ha, Finset.fold_insert ha, ih, hf.map_min]

/-- The ideal square root is monotone on the whole extended line: below zero it is the bottom, on `[0, ∞)` the real
    root, at the top the top. -/
theorem sqrt_mono : Monotone Ideal.sqrt := by
  intro a b hab
  induction a using EReal.rec with
  | bot => exact bot_le
  | top =>
    have hb : b = ⊤ := top_le_iff.mp hab
    rw [hb]
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- Clamp from below at a constant, then take the root. -/
def clampRoot (z v : EReal) : EReal := Ideal.sqrt (max v z)

theorem clampRoot_mono (z : EReal) : Monotone (clampRoot z) :=
  fun _ _ h => sqrt_mono (max_le_max h le_rfl)

/-- At the top it is the top, whatever the clamp. -/
theorem clampRoot_top (z : EReal) : clampRoot z ⊤ = ⊤ := by
  unfold clampRoot
  rw [max_eq_left le_top]
  rfl

/-- The minimum of the clamped roots is the clamped root of the minimum, the minima taken from `⊤`. -/
theorem fold_min_clampRoot {ι : Type*} (s : Finset ι) (z : EReal) (g : ι → EReal) :
    s.fold min ⊤ (fun i => clampRoot z (g i)) = clampRoot z (s.fold min ⊤ g) := by
  have h := fold_min_map s (clampRoot z) (clampRoot_mono z) ⊤ g
  rw [clampRoot_top] at h
  exact h

/-- The f32 word of `+∞`. -/
theorem ofBits_inf_f32 : Ideal.ofBits .f32 0x7F800000#32 = ⊤ := by simp [Ideal.ofBits, Ideal.ieee]

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at the ideal values: the
    fold of `min` from the initial value over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

end Cert.MinFold

end
-- ==== Proof.Spec.lean ====
/-
  The mathematics shared by the two programs, over the extended reals, with no program in sight.

  For one batch entry and one point, write `T k` for the part of the squared distance to centre `k` that depends on
  the centre: `‖c_k‖² − 2·⟨p, c_k⟩`, for `k < 1024`. One program takes, centre by centre, the root of the clamped
  squared distance `(‖p‖² + ‖c_k‖²) − 2·⟨p, c_k⟩` and then the minimum; the other keeps 128 running minima of `T`,
  lane `l` seeing the centres `256·j + 128·g + l` (tile `j < 4`, half `g < 2`), takes the minimum of the 128 lanes,
  adds `‖p‖²`, clamps and takes the root once. They agree because
    * the 1024 centres are exactly the triples (tile, half, lane) (`centre_surj`), so the minimum of the lane minima is
      the minimum over all centres (`lanes_min`), and
    * adding a constant, clamping from below and taking the root are monotone, so they pass through a minimum over a
      non-empty set (`fold_min_map_top`, `min_dist`).
-/
import Idealize.ShloMosaic.PureOps.Ideal
import proofs.«137503_j84232898609604_2_alg».proof.Proof.LibMinFold

noncomputable section

namespace Cert.Spec

open Cert.MinFold

/-- A lower bound of a minimum taken from the top is a lower bound of every term. -/
theorem le_fold_min_top {ι : Type*} (s : Finset ι) (f : ι → EReal) (c : EReal) :
    c ≤ s.fold min ⊤ f ↔ ∀ x ∈ s, c ≤ f x := by
  rw [Finset.le_fold_min]
  exact ⟨fun h => h.2, fun h => ⟨le_top, h⟩⟩

/-- Over a NON-EMPTY set a monotone map passes through the minimum taken from the top, whatever it does to the top
    itself: the image of the top is at least every image, so it does not change the minimum of the images. -/
theorem fold_min_map_top {ι : Type*} (s : Finset ι) (hs : s.Nonempty) (f : EReal → EReal) (hf : Monotone f)
    (g : ι → EReal) : s.fold min ⊤ (fun i => f (g i)) = f (s.fold min ⊤ g) := by
  rw [← fold_min_map s f hf ⊤ g]
  apply le_antisymm
  · rw [Finset.le_fold_min]
    obtain ⟨k, hk⟩ := hs
    refine ⟨?_, fun x hx => ?_⟩
    · exact le_trans (((Finset.le_fold_min _).mp le_rfl).2 k hk) (hf le_top)
    · exact ((Finset.le_fold_min _).mp le_rfl).2 x hx
  · rw [Finset.le_fold_min]
    exact ⟨le_top, fun x hx => ((Finset.le_fold_min _).mp le_rfl).2 x hx⟩

/-- Centre `128·g + l` of a tile of 256. -/
def inTile (g : Fin 2) (l : Fin 128) : Fin 256 := ⟨128 * g.val + l.val, by have := g.isLt; have := l.isLt; omega⟩

/-- Centre `256·j + k` of the 1024. -/
def ofTile (j : Fin 4) (k : Fin 256) : Fin 1024 := ⟨256 * j.val + k.val, by have := j.isLt; have := k.isLt; omega⟩

/-- Every centre is a (tile, half, lane). -/
theorem centre_surj (k : Fin 1024) : ∃ (j : Fin 4) (g : Fin 2) (l : Fin 128), ofTile j (inTile g l) = k :=
  ⟨⟨k.val / 256, by have := k.isLt; omega⟩, ⟨k.val % 256 / 128, by omega⟩, ⟨k.val % 128, by omega⟩,
    Fin.ext (by simp only [ofTile, inTile]; omega)⟩

/-- `v` is lane `l`'s running minimum after the tiles `0 … n`: its lower bounds are the common lower bounds of the
    terms at that lane's centres in those tiles. (A minimum is determined by its lower bounds.) -/
def IsLaneMin (T : Fin 1024 → EReal) (n : ℕ) (l : Fin 128) (v : EReal) : Prop :=
  ∀ c : EReal, c ≤ v ↔ ∀ (j : Fin 4) (g : Fin 2), j.val ≤ n → c ≤ T (ofTile j (inTile g l))

/-- The first tile: the minimum of the top and the tile's two halves. -/
theorem isLaneMin_zero (T : Fin 1024 → EReal) (l : Fin 128) (top : EReal) (htop : top = ⊤) :
    IsLaneMin T 0 l (min top ((Finset.univ : Finset (Fin 2)).fold min ⊤ fun g => T (ofTile 0 (inTile g l)))) := by
  intro c
  rw [htop, le_min_iff, le_fold_min_top]
  constructor
  · rintro ⟨-, h⟩ j g hj
    obtain rfl : j = 0 := Fin.ext (by have : j.val = 0 := by omega
                                      exact this)
    exact h g (Finset.mem_univ _)
  · intro h
    exact ⟨le_top, fun g _ => h 0 g le_rfl⟩

/-- A later tile: the minimum of what the lane held and the tile's two halves. -/
theorem isLaneMin_succ (T : Fin 1024 → EReal) (n : ℕ) (j' : Fin 4) (hj' : j'.val = n + 1) (l : Fin 128) (v : EReal)
    (hv : IsLaneMin T n l v) :
    IsLaneMin T (n + 1) l (min v ((Finset.univ : Finset (Fin 2)).fold min ⊤ fun g => T (ofTile j' (inTile g l)))) := by
  intro c
  rw [le_min_iff, le_fold_min_top, hv c]
  constructor
  · rintro ⟨h1, h2⟩ j g hj
    by_cases hjn : j.val ≤ n
    · exact h1 j g hjn
    · obtain rfl : j = j' := Fin.ext (by omega)
      exact h2 g (Finset.mem_univ _)
  · intro h
    exact ⟨fun j g hj => h j g (by omega), fun g _ => h j' g (by omega)⟩

/-- After the last tile the minimum of the 128 lanes is the minimum over all 1024 centres. -/
theorem lanes_min (T : Fin 1024 → EReal) (A : Fin 128 → EReal) (hA : ∀ l, IsLaneMin T 3 l (A l)) :
    (Finset.univ : Finset (Fin 128)).fold min ⊤ A = (Finset.univ : Finset (Fin 1024)).fold min ⊤ T := by
  refine eq_of_forall_le_iff fun c => ?_
  rw [le_fold_min_top, le_fold_min_top]
  constructor
  · intro h k _
    obtain ⟨j, g, l, rfl⟩ := centre_surj k
    exact ((hA l c).mp (h l (Finset.mem_univ _))) j g (by have := j.isLt; omega)
  · intro h l _
    exact (hA l c).mpr fun j g _ => h _ (Finset.mem_univ _)

/-- THE LAW. The minimum over the centres of the clamped root of `(a + s_k) − d_k` is the clamped root of `a` plus
    the minimum of `s_k − d_k`: subtraction is adding the negative and addition is associative on the extended reals
    (no finiteness needed), and `v ↦ root (max (a + v) z)` is monotone. -/
theorem min_dist {ι : Type*} (s : Finset ι) (hs : s.Nonempty) (z a : EReal) (sq d : ι → EReal) :
    s.fold min ⊤ (fun k => clampRoot z ((a + sq k) - d k)) = clampRoot z (a + s.fold min ⊤ fun k => sq k - d k) := by
  have hf : Monotone fun v : EReal => clampRoot z (a + v) :=
    fun _ _ h => clampRoot_mono z (add_le_add le_rfl h)
  rw [← fold_min_map_top s hs (fun v => clampRoot z (a + v)) hf]
  refine Finset.fold_congr fun k _ => ?_
  show clampRoot z (a + sq k - d k) = clampRoot z (a + (sq k - d k))
  rw [sub_eq_add_neg, sub_eq_add_neg, add_assoc]

/-- The squared norm of a feature vector. -/
def sqNorm (x : Fin 256 → EReal) : EReal := ∑ d : Fin 256, x d * x d

/-- The inner product of two feature vectors. -/
def dotp (x y : Fin 256 → EReal) : EReal := ∑ d : Fin 256, x d * y d

/-- The part of the squared distance from point `p` to centre `c` that depends on the centre:
    `‖c‖² − two·⟨p, c⟩` (`two` is the value of the programs' literal). -/
def cterm (two : EReal) (p c : Fin 256 → EReal) : EReal := sqNorm c - two * dotp p c

end Cert.Spec

end
-- ==== Proof.Ops.lean ====
/-
  The kernel body's non-pointwise operations, each read at one index at the ideal values, over arbitrary vectors of
  the body's literal shapes and coordinates of literal extents (batch 8, a tile of 512 points, a tile of 256 centres,
  256 features, 128 lanes):
    * a sum over the feature axis is the sum of its 256 terms;
    * the batched product of a tile of points with a tile of centres, into a zero accumulator, is the inner product
      of one point with one centre;
    * a row of centre norms broadcast along the point axis does not depend on the point;
    * splitting the 256 centres of a tile into 2 halves of 128 lanes reads centre `128·g + l`;
    * a minimum over the halves, or over the lanes, taken from +∞ is the fold of `min` from the top.
-/
import proofs.«137503_j84232898609604_2_alg».proof.Proof.Gen.KernelIdeal.Skeleton
import proofs.«137503_j84232898609604_2_alg».proof.Proof.LibMinFold
import proofs.«137503_j84232898609604_2_alg».proof.Proof.Spec
import Idealize.ShloMosaic.Lib.ValueIdx
import Idealize.ShloMosaic.Lib.Pipeline.Value
import Idealize.ShloMosaic.PureOps.Ideal.Laws

noncomputable section

namespace Cert.KernelIdeal.Ops

open Idealize.ShloMosaic Idealize.ShloMosaic.ValueIdx Cert.KernelIdeal Cert.KernelIdeal.Gen Cert.MinFold Cert.Spec

/-- The sum over the features of a tile of points. -/
theorem sum_points (v : FVec Ideal S8x512x256 .f32) (b : Fin 8) (r : Fin 512) :
    multiReduction .add [2] S8x512 v 0x00000000#32 Facts₀.reduces_S8x512x256_S8x512 (.inl rfl) rfl (ix2 b r)
      = ∑ d : Fin 256, v (ix3 b r d) := by
  refine (Ideal.multiReduction_add_single v 0x00000000#32 Facts₀.reduces_S8x512x256_S8x512 (.inl rfl) rfl (ix2 b r)).trans ?_
  refine Finset.sum_congr rfl fun d _ => congrArg v (funext fun a => Fin.ext ?_)
  match a with
  | ⟨0, _⟩ => rfl
  | ⟨1, _⟩ => rfl
  | ⟨2, _⟩ => rfl

/-- The sum over the features of a tile of centres. -/
theorem sum_centres (v : FVec Ideal S8x256x256 .f32) (b : Fin 8) (k : Fin 256) :
    multiReduction .add [2] S8x256 v 0x00000000#32 Facts₀.reduces_S8x256x256_S8x256 (.inl rfl) rfl (ix2 b k)
      = ∑ d : Fin 256, v (ix3 b k d) := by
  refine (Ideal.multiReduction_add_single v 0x00000000#32 Facts₀.reduces_S8x256x256_S8x256 (.inl rfl) rfl (ix2 b k)).trans ?_
  refine Finset.sum_congr rfl fun d _ => congrArg v (funext fun a => Fin.ext ?_)
  match a with
  | ⟨0, _⟩ => rfl
  | ⟨1, _⟩ => rfl
  | ⟨2, _⟩ => rfl

/-- The minimum over the two halves, from +∞. -/
theorem min_halves (v : FVec Ideal S8x512x2x128 .f32) (b : Fin 8) (r : Fin 512) (l : Fin 128) :
    multiReduction .minimumf [2] S8x512x128 v 0x7F800000#32 Facts₀.reduces_S8x512x2x128_S8x512x128 (.inl rfl) rfl (ix3 b r l)
      = (Finset.univ : Finset (Fin 2)).fold min ⊤ fun g => v (ix4 b r g l) := by
  refine (multiReduction_minimumf_single v 0x7F800000#32 Facts₀.reduces_S8x512x2x128_S8x512x128 (.inl rfl) rfl (ix3 b r l)).trans ?_
  show (Finset.univ : Finset (Fin 2)).fold min (Ideal.ofBits .f32 0x7F800000#32) _ = _
  rw [ofBits_inf_f32]
  refine Finset.fold_congr fun g _ => congrArg v (funext fun a => Fin.ext ?_)
  match a with
  | ⟨0, _⟩ => rfl
  | ⟨1, _⟩ => rfl
  | ⟨2, _⟩ => rfl
  | ⟨3, _⟩ => rfl

/-- The minimum over the 128 lanes, from +∞. -/
theorem min_lanes (v : FVec Ideal S8x512x128 .f32) (b : Fin 8) (r : Fin 512) :
    multiReduction .minimumf [2] S8x512 v 0x7F800000#32 Facts₀.reduces_S8x512x128_S8x512 (.inl rfl) rfl (ix2 b r)
      = (Finset.univ : Finset (Fin 128)).fold min ⊤ fun l => v (ix3 b r l) := by
  refine (multiReduction_minimumf_single v 0x7F800000#32 Facts₀.reduces_S8x512x128_S8x512 (.inl rfl) rfl (ix2 b r)).trans ?_
  show (Finset.univ : Finset (Fin 128)).fold min (Ideal.ofBits .f32 0x7F800000#32) _ = _
  rw [ofBits_inf_f32]
  refine Finset.fold_congr fun l _ => congrArg v (funext fun a => Fin.ext ?_)
  match a with
  | ⟨0, _⟩ => rfl
  | ⟨1, _⟩ => rfl
  | ⟨2, _⟩ => rfl

/-- Splitting a tile's 256 centres into 2 halves of 128 lanes: (half g, lane l) is centre `128·g + l`. -/
theorem split_halves (v : FVec Ideal S8x512x256 .f32) (b : Fin 8) (r : Fin 512) (g : Fin 2) (l : Fin 128) :
    shapeCast S8x512x2x128 v Facts₀.shapeCasts_S8x512x256_S8x512x2x128 (ix4 b r g l) = v (ix3 b r (inTile g l)) := by
  refine shapeCast_apply v _ (ix4 b r g l) (ix3 b r (inTile g l)) ?_
  rw [Shape.rowMajor_val_three, Shape.rowMajor_val_four]
  show ((b.val * 512 + r.val) * 256 + (128 * g.val + l.val)) = ((b.val * 512 + r.val) * 2 + g.val) * 128 + l.val
  ring

/-- The centre norms, as a row per batch entry, broadcast along the points: independent of the point. -/
theorem norms_bcast (v : FVec Ideal S8x256 .f32) (b : Fin 8) (r : Fin 512) (k : Fin 256) :
    broadcastTo S8x512x256 (shapeCast S8x1x256 v Facts₀.shapeCasts_S8x256_S8x1x256) Facts₀.broadcasts_S8x1x256_S8x512x256 (ix3 b r k)
      = v (ix2 b k) := by
  refine (broadcastTo_apply _ Facts₀.broadcasts_S8x1x256_S8x512x256 (ix3 b r k) (ix3 b (0 : Fin 1) k) fun a => ?_).trans ?_
  · match a with
    | ⟨0, _⟩ => show b.val = if (8 : Nat) = 1 then 0 else b.val; rw [if_neg (by decide)]
    | ⟨1, _⟩ => show 0 = if (1 : Nat) = 1 then 0 else r.val; rw [if_pos rfl]
    | ⟨2, _⟩ => show k.val = if (256 : Nat) = 1 then 0 else k.val; rw [if_neg (by decide)]
  · refine shapeCast_apply v _ (ix3 b (0 : Fin 1) k) (ix2 b k) ?_
    rw [Shape.rowMajor_val_two, Shape.rowMajor_val_three]
    show b.val * 256 + k.val = (b.val * 1 + 0) * 256 + k.val
    ring

/-- Which entries of the two operands the batched product reads for output entry `j` and feature `q`: the left
    operand at (batch, point, feature), the right at (batch, centre, feature). -/
theorem lhs_0 (j : S8x512x256.Idx) (q : dot_S8x512x256_S8x256x256_S8x512x256_2_2_1_1_0_0.contr.Idx) : (dot_S8x512x256_S8x256x256_S8x512x256_2_2_1_1_0_0.lhsIdx j q 0).val = (j 0).val := by
  unfold DotDims.lhsIdx
  rw [dif_pos (show (0 : Fin S8x512x256.rank) ∈ dot_S8x512x256_S8x256x256_S8x512x256_2_2_1_1_0_0.lhsBatch by decide)]
  rfl
theorem lhs_1 (j : S8x512x256.Idx) (q : dot_S8x512x256_S8x256x256_S8x512x256_2_2_1_1_0_0.contr.Idx) : (dot_S8x512x256_S8x256x256_S8x512x256_2_2_1_1_0_0.lhsIdx j q 1).val = (j 1).val := by
  unfold DotDims.lhsIdx
  rw [dif_neg (show ¬(1 : Fin S8x512x256.rank) ∈ dot_S8x512x256_S8x256x256_S8x512x256_2_2_1_1_0_0.lhsBatch by decide),
    dif_pos (show (1 : Fin S8x512x256.rank) ∈ dot_S8x512x256_S8x256x256_S8x512x256_2_2_1_1_0_0.lhsNonContracting by decide)]
  rfl
theorem lhs_2 (j : S8x512x256.Idx) (q : dot_S8x512x256_S8x256x256_S8x512x256_2_2_1_1_0_0.contr.Idx) : (dot_S8x512x256_S8x256x256_S8x512x256_2_2_1_1_0_0.lhsIdx j q 2).val = (q ⟨0, by decide⟩).val :=
  dot_S8x512x256_S8x256x256_S8x512x256_2_2_1_1_0_0.lhsIdx_val_of_single rfl j q
theorem rhs_0 (j : S8x512x256.Idx) (q : dot_S8x512x256_S8x256x256_S8x512x256_2_2_1_1_0_0.contr.Idx) : (dot_S8x512x256_S8x256x256_S8x512x256_2_2_1_1_0_0.rhsIdx j q 0).val = (j 0).val := by
  unfold DotDims.rhsIdx
  rw [dif_pos (show (0 : Fin S8x256x256.rank) ∈ dot_S8x512x256_S8x256x256_S8x512x256_2_2_1_1_0_0.rhsBatch by decide)]
  rfl
theorem rhs_1 (j : S8x512x256.Idx) (q : dot_S8x512x256_S8x256x256_S8x512x256_2_2_1_1_0_0.contr.Idx) : (dot_S8x512x256_S8x256x256_S8x512x256_2_2_1_1_0_0.rhsIdx j q 1).val = (j 2).val := by
  unfold DotDims.rhsIdx
  rw [dif_neg (show ¬(1 : Fin S8x256x256.rank) ∈ dot_S8x512x256_S8x256x256_S8x512x256_2_2_1_1_0_0.rhsBatch by decide),
    dif_pos (show (1 : Fin S8x256x256.rank) ∈ dot_S8x512x256_S8x256x256_S8x512x256_2_2_1_1_0_0.rhsNonContracting by decide)]
  rfl
theorem rhs_2 (j : S8x512x256.Idx) (q : dot_S8x512x256_S8x256x256_S8x512x256_2_2_1_1_0_0.contr.Idx) : (dot_S8x512x256_S8x256x256_S8x512x256_2_2_1_1_0_0.rhsIdx j q 2).val = (q ⟨0, by decide⟩).val :=
  dot_S8x512x256_S8x256x256_S8x512x256_2_2_1_1_0_0.rhsIdx_val_of_single rfl j q

/-- The batched product of a tile of points with a tile of centres, into a zero accumulator: entry (b, r, k) is
    the inner product over the features of point (b, r) with centre (b, k). -/
theorem cross (p : FVec Ideal S8x512x256 .bf16) (q : FVec Ideal S8x256x256 .bf16) (b : Fin 8) (r : Fin 512) (k : Fin 256) :
    matmul dot_S8x512x256_S8x256x256_S8x512x256_2_2_1_1_0_0 none p q (constant S8x512x256 .f32 0x00000000#32) (ix3 b r k)
      = ∑ d : Fin 256, p (ix3 b r d) * q (ix3 b k d) := by
  refine (Ideal.matmul_constant_zero_apply dot_S8x512x256_S8x256x256_S8x512x256_2_2_1_1_0_0 none p q (ix3 b r k)).trans ?_
  rw [← Equiv.sum_comp (ValueIdx.contrEquiv1 dot_S8x512x256_S8x256x256_S8x512x256_2_2_1_1_0_0 256 rfl rfl).symm]
  refine Finset.sum_congr rfl fun d _ => ?_
  have hd := ValueIdx.contrEquiv1_symm_val dot_S8x512x256_S8x256x256_S8x512x256_2_2_1_1_0_0 256 rfl rfl d
  have el : dot_S8x512x256_S8x256x256_S8x512x256_2_2_1_1_0_0.lhsIdx (ix3 b r k) ((ValueIdx.contrEquiv1 dot_S8x512x256_S8x256x256_S8x512x256_2_2_1_1_0_0 256 rfl rfl).symm d) = ix3 b r d :=
    funext fun a => Fin.ext (by
      match a with
      | ⟨0, _⟩ => exact lhs_0 _ _
      | ⟨1, _⟩ => exact lhs_1 _ _
      | ⟨2, _⟩ => exact (lhs_2 _ _).trans hd)
  have er : dot_S8x512x256_S8x256x256_S8x512x256_2_2_1_1_0_0.rhsIdx (ix3 b r k) ((ValueIdx.contrEquiv1 dot_S8x512x256_S8x256x256_S8x512x256_2_2_1_1_0_0 256 rfl rfl).symm d) = ix3 b k d :=
    funext fun a => Fin.ext (by
      match a with
      | ⟨0, _⟩ => exact rhs_0 _ _
      | ⟨1, _⟩ => exact rhs_1 _ _
      | ⟨2, _⟩ => exact (rhs_2 _ _).trans hd)
  rw [el, er]

end Cert.KernelIdeal.Ops

end
-- ==== Proof.Pay.lean ====
/-
  What the kernel body stores, read at one index at the ideal values, as functions of what it loaded
  (p: a tile of 512 points; q: a tile of 256 centres; acc: the 128 running minima per point; nrm: the points' squared norms):
    * the reset stores +∞ in every lane;
    * the squared norm of point (b, r) is the sum of the squares of its features;
    * lane l's new running minimum is the minimum of the old one and, over the tile's two halves g, of
      ‖q_k‖² − 2·⟨p, q_k⟩ at centre k = 128·g + l (a change of float format is the identity at the ideal values);
    * the result at point (b, r) is the root of max(‖p‖² + the minimum over the 128 lanes, 0).
-/
import proofs.«137503_j84232898609604_2_alg».proof.Proof.Ops

noncomputable section

namespace Cert.KernelIdeal.Pay

open Idealize.ShloMosaic Idealize.ShloMosaic.ValueIdx Cert.KernelIdeal Cert.KernelIdeal.Gen Cert.MinFold Cert.Spec
open Cert.KernelIdeal.Ops

/-- The reset: +∞ everywhere. -/
theorem reset_apply (b : Fin 8) (r : Fin 512) (l : Fin 128) : k0_pay1 (F := Ideal) (ix3 b r l) = ⊤ := by
  unfold k0_pay1
  refine (congrFun (shapeCast_self _ _) _).trans ?_
  exact ofBits_inf_f32

/-- The points' squared norms. -/
theorem norm_apply (p : Vec Ideal S8x512x256 .f32) (b : Fin 8) (r : Fin 512) :
    k0_pay2 (F := Ideal) p (ix2 b r) = sqNorm fun d => p (ix3 b r d) := by
  unfold k0_pay2
  dsimp only
  refine (congrFun (shapeCast_self _ _) _).trans ?_
  exact sum_points (mulf p p) b r

/-- One tile's update of the running minima. -/
theorem update_apply (p : Vec Ideal S8x512x256 .f32) (q : Vec Ideal S8x256x256 .f32) (acc : Vec Ideal S8x512x128 .f32)
    (b : Fin 8) (r : Fin 512) (l : Fin 128) :
    k0_pay3 (F := Ideal) p q acc (ix3 b r l)
      = min (acc (ix3 b r l)) ((Finset.univ : Finset (Fin 2)).fold min ⊤ fun g =>
          cterm (Ideal.ofBits .f32 0x40000000#32) (fun d => p (ix3 b r d)) (fun d => q (ix3 b (inTile g l) d))) := by
  unfold k0_pay3
  dsimp only
  refine (congrFun (shapeCast_self _ _) _).trans ?_
  refine congrArg (min (acc (ix3 b r l))) ?_
  refine (min_halves _ b r l).trans (Finset.fold_congr fun g _ => ?_)
  refine (split_halves _ b r g l).trans ?_
  refine congrArg₂ (fun x y : EReal => x - y) ?_ ?_
  · exact (norms_bcast _ b r (inTile g l)).trans (sum_centres (mulf q q) b (inTile g l))
  · exact congrArg (fun y : EReal => Ideal.ofBits .f32 0x40000000#32 * y)
      (cross (truncf .bf16 p Facts₀.bitsLt_bf16_f32) (truncf .bf16 q Facts₀.bitsLt_bf16_f32) b r (inTile g l))

/-- The result: clamp at zero and take the root of the squared norm plus the minimum over the lanes. -/
theorem result_apply (acc : Vec Ideal S8x512x128 .f32) (nrm : Vec Ideal S8x512 .f32) (b : Fin 8) (r : Fin 512) :
    k0_pay4 (F := Ideal) acc nrm (ix2 b r)
      = clampRoot (Ideal.ofBits .f32 0x00000000#32)
          (nrm (ix2 b r) + (Finset.univ : Finset (Fin 128)).fold min ⊤ fun l => acc (ix3 b r l)) := by
  unfold k0_pay4
  dsimp only
  exact congrArg (fun y : EReal => clampRoot (Ideal.ofBits .f32 0x00000000#32) (nrm (ix2 b r) + y)) (min_lanes acc b r)

end Cert.KernelIdeal.Pay

end
-- ==== Proof.Blocks.lean ====
/-
  Where the kernel's blocks sit in the argument arrays. The grid has 8 × 4 points, the centre axis innermost: grid point
  `t` works on tile `t / 4` of the points (512 rows each) and on tile `t % 4` of the centres (256 rows each, sliced
  out of the centres, which are resident whole). So entry (b, r, d) of the points' block is entry
  (b, 512·(t / 4) + r, d) of the points, and entry (b, k, d) of the sliced centre tile is entry (b, 256·(t % 4) + k, d)
  of the centres. The result's block at `t` is rows `512·(t / 4) …` of the result array.
-/
import proofs.«137503_j84232898609604_2_alg».proof.Proof.Gen.KernelIdeal.Frame
import proofs.«137503_j84232898609604_2_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen Cert.Spec
open Idealize.ShloMosaic.Pipeline (Dat)

variable {F : FTy → Type} [FloatOps F]
variable (m : (ℓ : Loc nD τ sig) → Buf (Elt F) ℓ) (c : Dev nD)

/-- The grid's 32 points run through the 8 tiles of points, and within each through the 4 tiles of centres. -/
def ntile (t : Fin cfg0.N) : Fin 8 := ⟨t.val / 4, by have := t.isLt; have hN : cfg0.N = 32 := N_0; omega⟩
def ktile (t : Fin cfg0.N) : Fin 4 := ⟨t.val % 4, by omega⟩

/-- Point `r` of tile `i` is point `512·i + r` of the 4096. -/
def prow (i : Fin 8) (r : Fin 512) : Fin 4096 := ⟨512 * i.val + r.val, by have := i.isLt; have := r.isLt; omega⟩

theorem widx0 : ∀ t : Fin cfg0.N, win0_0.index t 0 = 0 ∧ win0_0.index t 1 = t.val / 4 ∧ win0_0.index t 2 = 0 :=
  (by decide +kernel : ∀ t : Fin grid0.N, win0_0.index t 0 = 0 ∧ win0_0.index t 1 = t.val / 4 ∧ win0_0.index t 2 = 0)
theorem widx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem widx2 : ∀ t : Fin cfg0.N, win0_2.index t 0 = 0 ∧ win0_2.index t 1 = t.val / 4 :=
  (by decide +kernel : ∀ t : Fin grid0.N, win0_2.index t 0 = 0 ∧ win0_2.index t 1 = t.val / 4)
theorem kcoord : ∀ t : Fin cfg0.N, (grid0.coords t 1).val = t.val % 4 :=
  (by decide +kernel : ∀ t : Fin grid0.N, (grid0.coords t 1).val = t.val % 4)

/-- The block of points the body sees at grid point `t` is tile `t / 4` of the points. -/
theorem points_block (t : Fin cfg0.N) (b : Fin 8) (r : Fin 512) (d : Fin 256) :
    (iblk m c 0 t : Vec F S8x512x256 .f32) (ix3 b r d)
      = m ((c : Thread nD τ).loc main_arg0) (ix3 b (prow (ntile t) r) d) := by
  unfold iblk
  rw [View.read_apply]
  show m ((c : Thread nD τ).loc main_arg0) _ = _
  congr 1
  funext a
  apply Fin.ext
  obtain ⟨h0, h1, h2⟩ := widx0 t
  match a with
  | ⟨0, _⟩ => show win0_0.index t 0 * 8 + 1 * b.val = b.val; rw [h0]; omega
  | ⟨1, _⟩ => show win0_0.index t 1 * 512 + 1 * r.val = 512 * (t.val / 4) + r.val; rw [h1]; omega
  | ⟨2, _⟩ => show win0_0.index t 2 * 256 + 1 * d.val = d.val; rw [h2]; omega

/-- The tile of centres the body slices out of the resident centres at grid point `t` is tile `t % 4`. -/
theorem centres_tile (t : Fin cfg0.N) (b : Fin 8) (k : Fin 256) (d : Fin 256) :
    View.ld (iblk m c 1 t : Vec F S8x1024x256 .f32) (Rect.unit (s := S8x1024x256) (k0_off1 (grid0.coords t)) S8x256x256.size (Facts₀.k0_off1_inb (grid0.coords t))) (ix3 b k d)
      = m ((c : Thread nD τ).loc main_arg1) (ix3 b (ofTile (ktile t) k) d) := by
  show (iblk m c 1 t : Vec F S8x1024x256 .f32) _ = _
  unfold iblk
  rw [View.read_apply]
  show m ((c : Thread nD τ).loc main_arg1) _ = _
  congr 1
  funext a
  apply Fin.ext
  obtain ⟨h0, h1, h2⟩ := widx1 t
  have ho := k0_off1_eq (grid0.coords t)
  have hk := kcoord t
  match a with
  | ⟨0, _⟩ => show win0_1.index t 0 * 8 + 1 * (k0_off1 (grid0.coords t) 0 + 1 * b.val) = b.val
              rw [h0, ho]; show 0 * 8 + 1 * (0 + 1 * b.val) = b.val; omega
  | ⟨1, _⟩ => show win0_1.index t 1 * 1024 + 1 * (k0_off1 (grid0.coords t) 1 + 1 * k.val) = 256 * (t.val % 4) + k.val
              rw [h1, ho]; show 0 * 1024 + 1 * (256 * (grid0.coords t 1).val + 1 * k.val) = _; rw [hk]; omega
  | ⟨2, _⟩ => show win0_1.index t 2 * 256 + 1 * (k0_off1 (grid0.coords t) 2 + 1 * d.val) = d.val
              rw [h2, ho]; show 0 * 256 + 1 * (0 + 1 * d.val) = d.val; omega

end Cert.KernelIdeal.Blocks
end
-- ==== Proof.Accum.lean ====
/-
  The two buffers the kernel keeps across grid points, after each point, in terms of the argument arrays.
  Grid point `t` handles tile `t / 4` of the points and tile `t % 4` of the centres. By induction on `t`:
    * the norms buffer holds, at (b, r), the squared norm of point (b, 512·(t / 4) + r) — stored at the tile's first
      point and kept;
    * the minima buffer holds, at (b, r, l), the running minimum over the centres `256·j + 128·g + l` with `j ≤ t % 4`
      of ‖c‖² − 2·⟨p, c⟩ for that point — reset and updated at the first tile of centres, updated at the others.
  A minimum is pinned down by its lower bounds (`IsLaneMin`), which makes each step one line of order theory. After the
  last tile of centres the 128 lanes together have seen every centre, and the result block holds the distance from
  each point of the tile to its nearest centre.
-/
import proofs.«137503_j84232898609604_2_alg».proof.Proof.Pieces
import proofs.«137503_j84232898609604_2_alg».proof.Proof.Pay
import proofs.«137503_j84232898609604_2_alg».proof.Proof.Blocks

set_option maxRecDepth 16384

noncomputable section

namespace Cert.KernelIdeal.Accum

open Idealize.ShloMosaic Idealize.ShloMosaic.TcCoe Idealize.ShloMosaic.ValueIdx Idealize.SL.Sem Cert.KernelIdeal Cert.KernelIdeal.Gen
open Cert.Spec Cert.MinFold Cert.KernelIdeal.Pieces Cert.KernelIdeal.Pay Cert.KernelIdeal.Blocks
open Idealize.ShloMosaic.Pipeline (Dat)

variable (m : (ℓ : Loc nD τ sig) → Buf (Elt Ideal) ℓ) (c : Dev nD)

/-- The value of the programs' literal 2.0. -/
abbrev two : EReal := Ideal.ofBits .f32 0x40000000#32

/-- Point (b, n) and centre (b, k) of the argument arrays, as feature vectors. -/
def pvec (b : Fin 8) (n : Fin 4096) : Fin 256 → EReal := fun d => m ((c : Thread nD τ).loc main_arg0) (ix3 b n d)
def cvec (b : Fin 8) (k : Fin 1024) : Fin 256 → EReal := fun d => m ((c : Thread nD τ).loc main_arg1) (ix3 b k d)

/-- The centre-dependent part of the squared distance from point (b, n) to each of the 1024 centres. -/
def terms (b : Fin 8) (n : Fin 4096) : Fin 1024 → EReal := fun k => cterm two (pvec m c b n) (cvec m c b k)

/-- The point before `t`, when `t` is not the first of its tile of points. -/
def pred (t : Fin cfg0.N) : Fin cfg0.N := ⟨t.val - 1, Nat.lt_of_le_of_lt (Nat.sub_le _ _) t.isLt⟩

/-- At the first tile of centres the two persistent buffers are (re)initialised from the point's blocks alone. -/
theorem first_tile (t : Fin cfg0.N) (h0 : t.val % 4 = 0) :
    (outsAt0 m c t.val t.isLt).2.1 = k0_pay3 (iblk m c 0 t) (ctile (grid0.coords t) (iblk m c 1 t)) (k0_pay1 (F := Ideal))
    ∧ (outsAt0 m c t.val t.isLt).2.2 = k0_pay2 (iblk m c 0 t) := by
  have h1 : ¬t.val % 4 = 3 := by omega
  rw [outsAt0_A m c t h0 h1]
  dsimp only
  exact ⟨first_minima c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    first_norms c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- At a later tile of centres the running minima are updated from what the point before left, the norms kept. -/
theorem later_tile (t : Fin cfg0.N) (h0 : ¬t.val % 4 = 0) :
    (outsAt0 m c t.val t.isLt).2.1
        = k0_pay3 (iblk m c 0 t) (ctile (grid0.coords t) (iblk m c 1 t)) (outsAt0 m c (pred t).val (pred t).isLt).2.1
    ∧ (outsAt0 m c t.val t.isLt).2.2 = (outsAt0 m c (pred t).val (pred t).isLt).2.2 := by
  by_cases h1 : t.val % 4 = 3
  · rw [outsAt0_C m c t h0 h1]
    dsimp only
    exact ⟨last_minima c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) _ _, rfl⟩
  · rw [outsAt0_B m c t h0 h1]
    dsimp only
    exact ⟨middle_minima c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) _ _, rfl⟩

/-- At the last tile of centres the result block is computed from the updated minima and the kept norms. -/
theorem last_tile (t : Fin cfg0.N) (h1 : t.val % 4 = 3) :
    (outsAt0 m c t.val t.isLt).1 = k0_pay4 (outsAt0 m c t.val t.isLt).2.1 (outsAt0 m c (pred t).val (pred t).isLt).2.2 := by
  have h0 : ¬t.val % 4 = 0 := by omega
  rw [(later_tile m c t h0).1, outsAt0_C m c t h0 h1]
  dsimp only
  exact last_result c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) _ _

/-- One update of lane `l`'s running minimum at point (b, r) of the block, in terms of the argument arrays: the
    minimum of what was there and the two halves of tile `t % 4` of the centres, for point `512·(t / 4) + r`. -/
theorem update_read (t : Fin cfg0.N) (acc : Vec Ideal S8x512x128 .f32) (b : Fin 8) (r : Fin 512) (l : Fin 128) :
    k0_pay3 (F := Ideal) (iblk m c 0 t) (ctile (grid0.coords t) (iblk m c 1 t)) acc (ix3 b r l)
      = min (acc (ix3 b r l)) ((Finset.univ : Finset (Fin 2)).fold min ⊤ fun g =>
          terms m c b (prow (ntile t) r) (ofTile (ktile t) (inTile g l))) := by
  refine (update_apply (iblk m c 0 t) (ctile (grid0.coords t) (iblk m c 1 t)) acc b r l).trans ?_
  refine congrArg (min (acc (ix3 b r l))) (Finset.fold_congr fun g _ => ?_)
  show cterm two _ _ = cterm two _ _
  refine congrArg₂ (cterm two) (funext fun d => ?_) (funext fun d => ?_)
  · exact points_block m c t b r d
  · exact centres_tile m c t b (inTile g l) d

/-- THE INVARIANT of the two persistent buffers after grid point `n`: the norms buffer holds the squared norms of the
    current tile of points, and lane `l` at point (b, r) holds the running minimum over the tiles `0 … n % 4` of centres. -/
theorem scratch_inv : ∀ (n : ℕ) (hn : n < cfg0.N),
    (∀ (b : Fin 8) (r : Fin 512), (outsAt0 m c n hn).2.2 (ix2 b r) = sqNorm (pvec m c b (prow (ntile ⟨n, hn⟩) r)))
    ∧ (∀ (b : Fin 8) (r : Fin 512) (l : Fin 128),
        IsLaneMin (terms m c b (prow (ntile ⟨n, hn⟩) r)) (n % 4) l ((outsAt0 m c n hn).2.1 (ix3 b r l)))
  | n, hn => by
    by_cases h0 : n % 4 = 0
    · obtain ⟨e1, e2⟩ := first_tile m c ⟨n, hn⟩ h0
      refine ⟨fun b r => ?_, fun b r l => ?_⟩
      · show (outsAt0 m c n hn).2.2 (ix2 b r) = _
        rw [e2]
        refine (norm_apply (iblk m c 0 ⟨n, hn⟩) b r).trans (congrArg sqNorm (funext fun d => ?_))
        exact points_block m c ⟨n, hn⟩ b r d
      · show IsLaneMin _ _ l ((outsAt0 m c n hn).2.1 (ix3 b r l))
        rw [e1, update_read m c ⟨n, hn⟩ (k0_pay1 (F := Ideal)) b r l, h0]
        have hk : ktile ⟨n, hn⟩ = 0 := Fin.ext h0
        rw [hk]
        exact isLaneMin_zero _ l _ (reset_apply b r l)
    · have hN : cfg0.N = 32 := N_0
      have hpos : 0 < n := by omega
      obtain ⟨e1, e2⟩ := later_tile m c ⟨n, hn⟩ h0
      have ih := scratch_inv (n - 1) (by omega)
      have hnt : ntile ⟨n - 1, by omega⟩ = ntile ⟨n, hn⟩ := Fin.ext (by show (n - 1) / 4 = n / 4; omega)
      rw [hnt] at ih
      refine ⟨fun b r => ?_, fun b r l => ?_⟩
      · show (outsAt0 m c n hn).2.2 (ix2 b r) = _
        rw [e2]
        exact ih.1 b r
      · show IsLaneMin _ _ l ((outsAt0 m c n hn).2.1 (ix3 b r l))
        rw [e1, update_read m c ⟨n, hn⟩ _ b r l]
        have hm : n % 4 = (n - 1) % 4 + 1 := by omega
        rw [hm]
        exact isLaneMin_succ _ ((n - 1) % 4) (ktile ⟨n, hn⟩) (by show n % 4 = _; omega) l _ (ih.2 b r l)

/-- The distance from point (b, n) to its nearest centre, as the kernel arranges it. -/
def nearest (b : Fin 8) (n : Fin 4096) : EReal :=
  clampRoot (Ideal.ofBits .f32 0x00000000#32)
    (sqNorm (pvec m c b n) + (Finset.univ : Finset (Fin 1024)).fold min ⊤ (terms m c b n))

/-- What the result block holds after the last tile of centres: the nearest-centre distances of the tile's points. -/
theorem result_read (t : Fin cfg0.N) (h1 : t.val % 4 = 3) (b : Fin 8) (r : Fin 512) :
    (outsAt0 m c t.val t.isLt).1 (ix2 b r) = nearest m c b (prow (ntile t) r) := by
  have hN : cfg0.N = 32 := N_0
  have hpos : 0 < t.val := by omega
  rw [last_tile m c t h1]
  refine (result_apply _ _ b r).trans ?_
  have ihp := scratch_inv m c (pred t).val (pred t).isLt
  have hnt : ntile ⟨(pred t).val, (pred t).isLt⟩ = ntile t := Fin.ext (by show (t.val - 1) / 4 = t.val / 4; omega)
  rw [hnt] at ihp
  have iht := scratch_inv m c t.val t.isLt
  rw [h1] at iht
  unfold nearest
  rw [ihp.1 b r, lanes_min (terms m c b (prow (ntile t) r)) _ fun l => iht.2 b r l]

end Cert.KernelIdeal.Accum

end
-- ==== Proof.KValue.lean ====
/-
  The kernel's result array and the program's result. Only the last of a point tile's four grid points writes the
  result block back, and what it writes is the nearest-centre distances of the tile's 512 points (Accum); the eight
  tiles' blocks are rows `512·i … 512·i + 511` of the 8 × 4096 result array and together cover it, so the array ends
  holding the distance from every point to its nearest centre. The host lines after the region sum the array from
  zero and divide by 32768: the program's result is that mean.
-/
import proofs.«137503_j84232898609604_2_alg».proof.Proof.Accum
import Idealize.ShloMosaic.Lib.Pipeline.Value
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Cert.Spec Cert.MinFold Cert.KernelIdeal.Blocks Cert.KernelIdeal.Accum
open Idealize.ShloMosaic.Pipeline (Dat)

variable (m : (ℓ : Loc nD τ sig) → Buf (Elt Ideal) ℓ) (ρ : Dev nD → PrngReg)

/-- The result array the region leaves: entry (b, n) is the distance from point (b, n) to its nearest centre. -/
def distances (c : Dev nD) : Buf (Elt Ideal) ((c : Thread nD τ).loc main_v0) := fun j => nearest m c (j 0) (j 1)

/-- What a grid point writes back (only the last of its four tiles of centres does) is its block of `distances`. -/
theorem flushed_eq (c : Dev nD) (t : Fin cfg0.N) (hf : (cfg0.win 2).flush t = true) :
    (dats m 0 c).flushed 2 t = ((cfg0.win 2).blk t).view.read (Elt Ideal) (distances m c) := by
  have h3 : t.val % 4 = 3 := (flush0_2 t).mp hf
  show (cfg0.win 2).cut (grid0.coords t) ((dats m 0 c).after 2 t) = _
  rw [after0_2]
  funext y
  obtain ⟨b, r, rfl⟩ : ∃ (b : Fin 8) (r : Fin 512), y = ix2 b r := ⟨y 0, y 1, eq_ix2 y⟩
  rw [View.read_apply]
  refine (result_read m c t h3 b r).trans ?_
  obtain ⟨h0, h1⟩ := widx2 t
  show nearest m c b (prow (ntile t) r) = nearest m c _ _
  congr 1
  · apply Fin.ext
    show b.val = win0_2.index t 0 * 8 + 1 * b.val
    rw [h0]; omega
  · apply Fin.ext
    show 512 * (t.val / 4) + r.val = win0_2.index t 1 * 512 + 1 * r.val
    rw [h1]; omega

/-- An index of the result array is in grid point `t`'s block iff each coordinate is in the block's range. -/
theorem mem_blk (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0).slice (win0_2.rect t)).set ↔ _
  rw [View.set_slice_whole, Rect.mem_set_unit]
  exact Iff.rfl

/-- Row n of the result is written back by the last grid point of tile `n / 512` of the points. -/
theorem cover (i : S8x4096.Idx) : ∃ t : Fin cfg0.N, (cfg0.win 2).flush t = true ∧ i ∈ ((cfg0.win 2).blk t).view.set := by
  have hN : cfg0.N = 32 := N_0
  have hi0 : (i 0).val < 8 := (i 0).isLt
  have hi1 : (i 1).val < 4096 := (i 1).isLt
  have ht : 4 * ((i 1).val / 512) + 3 < cfg0.N := by omega
  refine ⟨⟨4 * ((i 1).val / 512) + 3, ht⟩, (flush0_2 _).mpr (by show (4 * ((i 1).val / 512) + 3) % 4 = 3; omega), ?_⟩
  rw [mem_blk]
  obtain ⟨h0, h1⟩ := widx2 ⟨4 * ((i 1).val / 512) + 3, ht⟩
  have hq : (4 * ((i 1).val / 512) + 3) / 4 = (i 1).val / 512 := by omega
  intro a
  match a with
  | ⟨0, _⟩ =>
    show win0_2.index ⟨4 * ((i 1).val / 512) + 3, ht⟩ 0 * 8 ≤ (i 0).val ∧ (i 0).val < win0_2.index ⟨4 * ((i 1).val / 512) + 3, ht⟩ 0 * 8 + 8
    rw [h0]; omega
  | ⟨1, _⟩ =>
    show win0_2.index ⟨4 * ((i 1).val / 512) + 3, ht⟩ 1 * 512 ≤ (i 1).val ∧ (i 1).val < win0_2.index ⟨4 * ((i 1).val / 512) + 3, ht⟩ 1 * 512 + 512
    rw [h1]
    show (4 * ((i 1).val / 512) + 3) / 4 * 512 ≤ (i 1).val ∧ (i 1).val < (4 * ((i 1).val / 512) + 3) / 4 * 512 + 512
    rw [hq]; omega

/-- So the result array ends holding `distances`. -/
theorem final (c : Dev nD) : (dats m 0 c).arrAt 2 cfg0.N = distances m c :=
  (dats m 0 c).arrAt_eq_of_cover 2 (distances m c) (flushed_eq m c) cover

/-- The mean of the 8 × 4096 entries, as the host computes it: their sum from zero, divided by 32768. -/
def meanOf (x : FVec Ideal S8x4096 .f32) : FVec Ideal S_ .f32 :=
  Host.divf (F := Ideal)
    (Host.reduceAdd (F := Ideal) x (constant (F := Ideal) S_ .f32 0x00000000#32) Facts₀.reducesTo_S8x4096_S_d0_1 Facts₀.h_S_)
    (constant (F := Ideal) S_ .f32 0x47000000#32)

/-- The program's result after the host lines that follow the region: the mean of `distances`. -/
theorem tail_eq (c : Dev nD) :
    Pipeline.afterTail₀ cfgs (dats m) 0 (V0 m) [hostOps1] c main_v2 = meanOf (distances m c) := by
  unfold Pipeline.afterTail₀
  show StableHlo.after hostOps1 _ (Proc.devRef .tc main_v2) = _
  after_results
  rw [(Pipeline.withArrays_arr spec0 launch0.win.arr_inj c _ _ 2).trans (final m c)]
  rfl

theorem main_v2_rest : main_v2 ∈ Pipeline.restRefs sig (cfgs 0).spec :=
  Pipeline.mem_restRefs_of main_v2 rfl (fun w => by fin_cases w <;> decide)

/-- THE KERNEL'S RUN, READ: every weakly fair execution ends with the result at the mean of the nearest-centre
    distances and both arguments unchanged. -/
theorem run : θ_run defs (onTc (τ := τ) (main (F := Ideal))) ⟨m, fun _ => 0, ρ⟩ fun r => ∀ c : Dev nD,
      r.2.mem ((c : Thread nD τ).loc main_v2) = meanOf (distances m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 main_v2_rest).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.RefValue.lean ====
/-
  The reference, read at the ideal values. For batch entry b, point n and centre k it forms the squared distance
  (‖p‖² + ‖c_k‖²) − 2·⟨p, c_k⟩ from the two squared norms (each a sum from zero over the 256 features, broadcast to the
  8 × 4096 × 1024 table) and the batched product, clamps it at zero, takes the root, and then the minimum over the 1024
  centres from +∞. By the law `min_dist` that minimum is the root of the clamped `‖p‖² + min_k (‖c_k‖² − 2·⟨p, c_k⟩)`:
  the form in which the kernel computes it.
-/
import proofs.«137503_j84232898609604_2_alg».proof.Proof.Gen.ReferenceIdeal.Read
import proofs.«137503_j84232898609604_2_alg».proof.Proof.Spec
import proofs.«137503_j84232898609604_2_alg».proof.Proof.LibMinFold
import Idealize.ShloMosaic.Lib.ValueIdx

noncomputable section

namespace Cert.ReferenceIdeal.RefValue

open Idealize.ShloMosaic Idealize.ShloMosaic.ValueIdx Cert.ReferenceIdeal Cert.ReferenceIdeal.Read Cert.Spec Cert.MinFold

variable (x0 : (⟨S8x4096x256, .f32⟩ : BufTy).Contents (Elt Ideal)) (x1 : (⟨S8x1024x256, .f32⟩ : BufTy).Contents (Elt Ideal))

/-- Which entries of the arguments entry (b, n, k) of the distance table depends on. -/
theorem e_p (b : Fin 8) (n : Fin 4096) (k : Fin 1024) (d : Fin 256) :
    idx_main_v1 (idx_main_v5 (idx_main_v7 (ix3 b n k))) d = ix3 b n d :=
  funext fun a => Fin.ext (by match a with | ⟨0, _⟩ => rfl | ⟨1, _⟩ => rfl | ⟨2, _⟩ => rfl)
theorem e_c (b : Fin 8) (n : Fin 4096) (k : Fin 1024) (d : Fin 256) :
    idx_main_v3 (idx_main_v6 (idx_main_v8 (ix3 b n k))) d = ix3 b k d :=
  funext fun a => Fin.ext (by match a with | ⟨0, _⟩ => rfl | ⟨1, _⟩ => rfl | ⟨2, _⟩ => rfl)
theorem e_l (b : Fin 8) (n : Fin 4096) (k : Fin 1024) (d : Fin 256) : lidx_main_v4 (ix3 b n k) d = ix3 b n d :=
  funext fun a => Fin.ext (by match a with | ⟨0, _⟩ => rfl | ⟨1, _⟩ => rfl | ⟨2, _⟩ => rfl)
theorem e_r (b : Fin 8) (n : Fin 4096) (k : Fin 1024) (d : Fin 256) : ridx_main_v4 (ix3 b n k) d = ix3 b k d :=
  funext fun a => Fin.ext (by match a with | ⟨0, _⟩ => rfl | ⟨1, _⟩ => rfl | ⟨2, _⟩ => rfl)

/-- A sum taken from the zero literal is the sum. -/
theorem zero_lit_add (x : EReal) : Ideal.ofBits .f32 0x00000000#32 + x = x := by
  rw [Ideal.ofBits_zero_f32, zero_add]

/-- The distance from point (b, n) to centre (b, k), as the reference forms it. -/
theorem dist_apply (b : Fin 8) (n : Fin 4096) (k : Fin 1024) :
    val_main_v15 (F := Ideal) x0 x1 (ix3 b n k)
      = clampRoot (Ideal.ofBits .f32 0x00000000#32)
          ((sqNorm (fun d => x0 (ix3 b n d)) + sqNorm (fun d => x1 (ix3 b k d)))
            - Ideal.ofBits .f32 0x40000000#32 * dotp (fun d => x0 (ix3 b n d)) (fun d => x1 (ix3 b k d))) := by
  rw [val_main_v15_apply, val_main_v14_apply, val_main_v12_apply, val_main_v9_apply, val_main_v11_apply,
    val_main_v13_apply, val_main_cst_2_apply, val_main_v10_apply, val_main_cst_1_apply, val_main_v7_apply,
    val_main_v5_apply, val_main_v1_apply, val_main_v8_apply, val_main_v6_apply, val_main_v3_apply, val_main_v4_apply,
    val_main_cst_apply, val_main_cst_0_apply]
  simp only [val_main_v0_apply, val_main_v2_apply, e_p, e_c, e_l, e_r, Ideal.hostUnary_sqrt_def, Ideal.maximumf_def,
    Ideal.subf_def, Ideal.addf_def, Ideal.mulf_def, Ideal.ofBits_def, zero_lit_add]
  rfl

/-- The reference's per-point result: the distance from point (b, n) to its nearest centre, in the kernel's form. -/
theorem row_apply (b : Fin 8) (n : Fin 4096) :
    val_main_v16 (F := Ideal) x0 x1 (ix2 b n)
      = clampRoot (Ideal.ofBits .f32 0x00000000#32)
          (sqNorm (fun d => x0 (ix3 b n d)) + (Finset.univ : Finset (Fin 1024)).fold min ⊤ fun k =>
            cterm (Ideal.ofBits .f32 0x40000000#32) (fun d => x0 (ix3 b n d)) (fun d => x1 (ix3 b k d))) := by
  unfold val_main_v16
  refine (hostReduce_minimumf_single (val_main_v15 (F := Ideal) x0 x1) (val_main_cst_3 (F := Ideal))
    Facts₀.reducesTo_S8x4096x1024_S8x4096_d2 (by decide) Facts₀.h_S_ (ix2 b n)).trans ?_
  show (Finset.univ : Finset (Fin 1024)).fold min (Ideal.ofBits .f32 0x7F800000#32) _ = _
  rw [ofBits_inf_f32]
  refine Eq.trans (Finset.fold_congr fun k _ => ?_)
    (min_dist (Finset.univ : Finset (Fin 1024)) Finset.univ_nonempty (Ideal.ofBits .f32 0x00000000#32)
      (sqNorm fun d => x0 (ix3 b n d)) (fun k => sqNorm fun d => x1 (ix3 b k d))
      (fun k => Ideal.ofBits .f32 0x40000000#32 * dotp (fun d => x0 (ix3 b n d)) (fun d => x1 (ix3 b k d))))
  refine Eq.trans (congrArg (val_main_v15 (F := Ideal) x0 x1) (funext fun a => Fin.ext ?_)) (dist_apply x0 x1 b n k)
  match a with
  | ⟨0, _⟩ => rfl
  | ⟨1, _⟩ => rfl
  | ⟨2, _⟩ => rfl

end Cert.ReferenceIdeal.RefValue

end
-- ==== Proof.lean ====
/-
  Both programs compute the mean, over 8 batch entries and 4096 points each, of the distance from a point to the nearest
  of that entry's 1024 centres, the squared distance expanded as ‖p‖² + ‖c‖² − 2·⟨p, c⟩ and clamped at zero before the root.

  The reference forms the whole 8 × 4096 × 1024 table of distances and takes the minimum along the centres. The kernel
  walks the points in 8 tiles of 512 and, for each, the centres in 4 tiles of 256: it keeps 128 running minima per point
  of ‖c‖² − 2·⟨p, c⟩ (the part that depends on the centre), folds each tile's two halves of 128 into them, and only after
  the last tile takes the minimum over the 128 lanes, adds ‖p‖², clamps and takes the root. At the ideal values these
  agree: the (tile, half, lane) triples are exactly the 1024 centres, a change of float format is the identity, and
  adding a constant, clamping from below and taking the root are monotone, so they pass through the minimum over the
  (non-empty) set of centres. No finiteness of the inputs is used. Both programs then take the same mean.

  The modules: Spec (the order theory on the extended reals), Ops and Pay (the body's operations and stores read at an
  index), Pieces (what each control case leaves), Blocks (where the blocks sit in the arrays), Accum (the two persistent
  buffers after each grid point, by induction), KValue (the result array and the program's result), RefValue (the
  reference read at an index).
-/
import proofs.«137503_j84232898609604_2_alg».proof.Defs
import proofs.«137503_j84232898609604_2_alg».proof.Proof.Gen.Kernel
import proofs.«137503_j84232898609604_2_alg».proof.Proof.Gen.Kernel.Skeleton
import proofs.«137503_j84232898609604_2_alg».proof.Proof.Gen.Kernel.Launch
import proofs.«137503_j84232898609604_2_alg».proof.Proof.Gen.Kernel.Points
import proofs.«137503_j84232898609604_2_alg».proof.Proof.Gen.Kernel.Frame
import proofs.«137503_j84232898609604_2_alg».proof.Proof.Gen.KernelIdeal
import proofs.«137503_j84232898609604_2_alg».proof.Proof.Gen.KernelIdeal.Skeleton
import proofs.«137503_j84232898609604_2_alg».proof.Proof.Gen.KernelIdeal.Launch
import proofs.«137503_j84232898609604_2_alg».proof.Proof.Gen.KernelIdeal.Points
import proofs.«137503_j84232898609604_2_alg».proof.Proof.Gen.KernelIdeal.Frame
import proofs.«137503_j84232898609604_2_alg».proof.Proof.Gen.ReferenceIdeal
import proofs.«137503_j84232898609604_2_alg».proof.Proof.Gen.ReferenceIdeal.Run
import proofs.«137503_j84232898609604_2_alg».proof.Proof.Gen.ReferenceIdeal.Read
import proofs.«137503_j84232898609604_2_alg».proof.Proof.Gen.Pre_finite_inputs
import proofs.«137503_j84232898609604_2_alg».proof.Proof.KValue
import proofs.«137503_j84232898609604_2_alg».proof.Proof.RefValue
import Idealize.ShloMosaic.Adequacy
import Idealize.ShloMosaic.Init

noncomputable section

namespace Cert.Proof

open Idealize.ShloMosaic Idealize.ShloMosaic.ValueIdx Idealize.SL.Sem

/-- The three programs run and keep their arguments. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values, from arguments that agree, both programs end at the mean of the nearest-centre distances: the
    kernel's result array holds them (KValue), the reference's per-point minimum is the same number (RefValue), and the
    mean is one function of that array. -/
theorem algebraic : Cert.algebraic_KernelIdeal_ReferenceIdeal := by
  intro m ρ m' ρ' _ hagree
  refine ⟨fun c => Cert.KernelIdeal.KValue.meanOf (Cert.KernelIdeal.KValue.distances m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  show Cert.KernelIdeal.KValue.meanOf (Cert.ReferenceIdeal.Read.val_main_v16 (F := Ideal) _ _) = _
  refine congrArg Cert.KernelIdeal.KValue.meanOf (funext fun j => ?_)
  obtain ⟨b, n, rfl⟩ : ∃ (b : Fin 8) (n : Fin 4096), j = ix2 b n := ⟨j 0, j 1, eq_ix2 j⟩
  exact Cert.ReferenceIdeal.RefValue.row_apply _ _ b n

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
